-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 7
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .bf16⟩
  | .hbm, ⟨6, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S10000x128, .bf16⟩
  | .local _ .vmem, ⟨4, _⟩ => ⟨S400x10000, .f32⟩
  | .local _ .vmem, ⟨5, _⟩ => ⟨S400x10000, .f32⟩
  | .local _ .vmem, ⟨6, _⟩ => ⟨S10000x128, .bf16⟩
  | .local _ .vmem, ⟨7, _⟩ => ⟨S400x128, .f32⟩
  | .local _ .vmem, ⟨8, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0_0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10000x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bitsLt_bf16_f32 : FTy.bits .bf16 < FTy.bits .f32
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S10000x128_S10000x128 : S10000x128.ShapeCasts S10000x128
  inb_S400x128_S400x128_0_0 : ∀ a, (![0, 0] : Fin 2 → Nat) a + S400x128.size a ≤ S400x128.size a
  h_S400x128 : 0 < S400x128.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_call0_v0) false false (stage0_2 0) (sem0_2 0) (Memref.isWhole_whole _) (hstage0_2 0)

abbrev win0_3 : Pipeline.Window sig grid0 :=
  Pipeline.Window.whole (Memref.whole main_call0_v1) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v1) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S400x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S_, .f32⟩
  | .hbm, ⟨11, _⟩ => ⟨S10000x128, .f32⟩
  | .hbm, ⟨12, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelRun.lean ====
/-
  The idealized kernel's run with its result named. The program is a reshape of the bias on the host followed by two
  kernel launches; every weakly fair execution terminates without fault, and then the result buffer holds what the
  second launch's write-backs leave in it, while the four argument arrays hold what they held at launch.

  The statement is the one the segment-by-segment run of the program yields at the last segment boundary: each unscoped
  buffer at that boundary's contents, here read at the result buffer as well as at the arguments.
-/
import proofs.«167146_g57853209477636_cont_9to1_m_1361_5_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v0_0) = W3 m ρ c (Proc.devRef .tc main_v0_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v0_0 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.RunValue

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.BodyValue.lean ====
/-
  The two kernel bodies read at an entry, over the extended reals.

  The first body stores, at (r, c), the inner product of row r of its first block with row c of its second block
  (the second block enters the product transposed) plus entry (0, c) of its one-row third block; the rounding of the
  stored value to a shorter format is the identity on extended reals.

  The second body stores, at (r, c), the larger of the f32 zero word's value and the inner product of row r of its
  first block with column c of its second block; the rounding of the first block before the product is the identity.

  Both products are taken into an accumulator of zeros, so each is the plain finite sum over the inner position.
-/
import proofs.«167146_g57853209477636_cont_9to1_m_1361_5_alg».proof.Proof.Gen.KernelIdeal.Skeleton
import proofs.«167146_g57853209477636_cont_9to1_m_1361_5_alg».proof.Proof.LibDotIx2
import Idealize.ShloMosaic.Lib.ValueIdx
import Idealize.ShloMosaic.Lib.Pipeline.Value
import Idealize.ShloMosaic.PureOps.Ideal.Laws

noncomputable section

namespace Cert.KernelIdeal.BodyValue

open Idealize.ShloMosaic Idealize.ShloMosaic.ValueIdx Cert.KernelIdeal Cert.KernelIdeal.Gen

/-- The first body's product contracts the second axis of a 10000 × 128 array with the first axis of a 128 × 128 array. -/
theorem plain_affine : PlainDot dot_S10000x128_S128x128_S10000x128_1_0_0_1_n_n where
  rank := rfl
  size := rfl
  l0 := fun j q => by
    unfold DotDims.lhsIdx
    rw [dif_neg (show ¬(0 : Fin S10000x128.rank) ∈ dot_S10000x128_S128x128_S10000x128_1_0_0_1_n_n.lhsBatch by decide),
      dif_pos (show (0 : Fin S10000x128.rank) ∈ dot_S10000x128_S128x128_S10000x128_1_0_0_1_n_n.lhsNonContracting by decide)]
    rfl
  l1 := fun j q => dot_S10000x128_S128x128_S10000x128_1_0_0_1_n_n.lhsIdx_val_of_single rfl j q
  r0 := fun j q => dot_S10000x128_S128x128_S10000x128_1_0_0_1_n_n.rhsIdx_val_of_single rfl j q
  r1 := fun j q => by
    unfold DotDims.rhsIdx
    rw [dif_neg (show ¬(1 : Fin S128x128.rank) ∈ dot_S10000x128_S128x128_S10000x128_1_0_0_1_n_n.rhsBatch by decide),
      dif_pos (show (1 : Fin S128x128.rank) ∈ dot_S10000x128_S128x128_S10000x128_1_0_0_1_n_n.rhsNonContracting by decide)]
    rfl

/-- The second body's product contracts the second axis of a 400 × 10000 array with the first axis of a 10000 × 128 array. -/
theorem plain_aggregate : PlainDot dot_S400x10000_S10000x128_S400x128_1_0_0_1_n_n where
  rank := rfl
  size := rfl
  l0 := fun j q => by
    unfold DotDims.lhsIdx
    rw [dif_neg (show ¬(0 : Fin S400x10000.rank) ∈ dot_S400x10000_S10000x128_S400x128_1_0_0_1_n_n.lhsBatch by decide),
      dif_pos (show (0 : Fin S400x10000.rank) ∈ dot_S400x10000_S10000x128_S400x128_1_0_0_1_n_n.lhsNonContracting by decide)]
    rfl
  l1 := fun j q => dot_S400x10000_S10000x128_S400x128_1_0_0_1_n_n.lhsIdx_val_of_single rfl j q
  r0 := fun j q => dot_S400x10000_S10000x128_S400x128_1_0_0_1_n_n.rhsIdx_val_of_single rfl j q
  r1 := fun j q => by
    unfold DotDims.rhsIdx
    rw [dif_neg (show ¬(1 : Fin S10000x128.rank) ∈ dot_S400x10000_S10000x128_S400x128_1_0_0_1_n_n.rhsBatch by decide),
      dif_pos (show (1 : Fin S10000x128.rank) ∈ dot_S400x10000_S10000x128_S400x128_1_0_0_1_n_n.rhsNonContracting by decide)]
    rfl

/-- A 128 × 128 array transposed, at (k, c): the array at (c, k). -/
theorem transpose_weight_ix2 (w : Vec Ideal S128x128 .f32) (k c : Fin 128) :
    transpose S128x128 [1, 0] w transposes_S128x128_p1_0_S128x128 (ix2 k c) = w (ix2 c k) :=
  transpose_apply [1, 0] w transposes_S128x128_p1_0_S128x128 (ix2 k c) (ix2 c k) (fun b => match b with
    | ⟨0, _⟩ => rfl
    | ⟨1, _⟩ => rfl)

/-- A one-row array repeated down 10000 rows, at (r, c): the row's entry c. -/
theorem bias_rows_ix2 (b : Vec Ideal S1x128 .f32) (r : Fin 10000) (c : Fin 128) :
    broadcastTo S10000x128 b broadcasts_S1x128_S10000x128 (ix2 r c) = b (ix2 0 c) :=
  broadcastTo_apply b broadcasts_S1x128_S10000x128 (ix2 r c) (ix2 0 c) (fun a => match a with
    | ⟨0, _⟩ => by show 0 = if (1 : Nat) = 1 then 0 else r.val; rw [if_pos rfl]
    | ⟨1, _⟩ => by show c.val = if (128 : Nat) = 1 then 0 else c.val; rw [if_neg (by decide)])

/-- The first body's stored value at (r, c): Σ_k x(r, k) · w(c, k) + b(0, c). -/
theorem affine_at (x : Vec Ideal S10000x128 .f32) (w : Vec Ideal S128x128 .f32) (b : Vec Ideal S1x128 .f32) (r : Fin 10000) (c : Fin 128) :
    k0_pay1 (F := Ideal) x w b (ix2 r c) = (∑ k : Fin 128, x (ix2 r k) * w (ix2 c k)) + b (ix2 0 c) := by
  unfold k0_pay1
  show matmul (F := Ideal) dot_S10000x128_S128x128_S10000x128_1_0_0_1_n_n none x (transpose S128x128 [1, 0] w transposes_S128x128_p1_0_S128x128)
        (constant (F := Ideal) S10000x128 .f32 0x00000000#32) (ix2 r c)
      + broadcastTo S10000x128 (shapeCast S1x128 b shapeCasts_S1x128_S1x128) broadcasts_S1x128_S10000x128 (ix2 r c) = _
  rw [shapeCast_self, bias_rows_ix2]
  refine congrArg (· + b (ix2 0 c)) ?_
  refine (matmul_zero_ix2_any plain_affine none x _ r c).trans ?_
  exact Finset.sum_congr rfl fun k _ => congrArg (x (ix2 r k) * ·) (transpose_weight_ix2 w k c)

/-- The second body's stored value at (r, c): max (Σ_k a(r, k) · h(k, c)) 0. -/
theorem aggregate_at (a : Vec Ideal S400x10000 .f32) (h : Vec Ideal S10000x128 .bf16) (r : Fin 400) (c : Fin 128) :
    k1_pay1 (F := Ideal) a h (ix2 r c) = max (∑ k : Fin 10000, a (ix2 r k) * h (ix2 k c)) (Ideal.ofBits .f32 0x00000000#32) := by
  unfold k1_pay1
  show max (matmul (F := Ideal) dot_S400x10000_S10000x128_S400x128_1_0_0_1_n_n none (truncf (F := Ideal) .bf16 a bitsLt_bf16_f32)
        (shapeCast S10000x128 h shapeCasts_S10000x128_S10000x128) (constant (F := Ideal) S400x128 .f32 0x00000000#32) (ix2 r c))
      (Ideal.ofBits .f32 0x00000000#32) = _
  rw [shapeCast_self]
  refine congrArg (max · (Ideal.ofBits .f32 0x00000000#32)) ?_
  exact matmul_zero_ix2_any plain_aggregate none (truncf (F := Ideal) .bf16 a bitsLt_bf16_f32) h r c

/-- The first body's stored value at any entry j = (j₀, j₁). -/
theorem affine_apply (x : Vec Ideal S10000x128 .f32) (w : Vec Ideal S128x128 .f32) (b : Vec Ideal S1x128 .f32) (j : S10000x128.Idx) :
    k0_pay1 (F := Ideal) x w b j = (∑ k : Fin 128, x (ix2 (j 0) k) * w (ix2 (j 1) k)) + b (ix2 0 (j 1)) := by
  obtain ⟨r, c, rfl⟩ : ∃ (r : Fin 10000) (c : Fin 128), j = ix2 r c := ⟨j 0, j 1, eq_ix2 j⟩
  exact affine_at x w b r c

/-- The second body's stored value at any entry j = (j₀, j₁). -/
theorem aggregate_apply (a : Vec Ideal S400x10000 .f32) (h : Vec Ideal S10000x128 .bf16) (j : S400x128.Idx) :
    k1_pay1 (F := Ideal) a h j = max (∑ k : Fin 10000, a (ix2 (j 0) k) * h (ix2 k (j 1))) (Ideal.ofBits .f32 0x00000000#32) := by
  obtain ⟨r, c, rfl⟩ : ∃ (r : Fin 400) (c : Fin 128), j = ix2 r c := ⟨j 0, j 1, eq_ix2 j⟩
  exact aggregate_at a h r c

end Cert.KernelIdeal.BodyValue

end
-- ==== Proof.Spec.lean ====
/-
  Graph convolution over the extended reals, stated once and index by index: a layer of N = 10000 nodes with
  D = 128 features, a dense N × N adjacency, a D × D weight and a D-vector of biases.

    hidden x w b (r, c) = Σ_{k < D} x(r, k) · w(c, k) + b(c)           (the affine map x · wᵀ + b)
    aggregated adj h (r, c) = max (Σ_{k < N} adj(r, k) · h(k, c)) 0     (adj · h, then the rectifier)

  The rectifier's floor is written as the value of the f32 word 0x00000000, which is the extended real 0.
-/
import Idealize.ShloMosaic.PureOps.Ideal
import Idealize.ShloMosaic.Lib.ValueIdx

noncomputable section

namespace Cert.GraphConv

open Idealize.ShloMosaic Idealize.ShloMosaic.ValueIdx

/-- Node features and node outputs: N × D. -/
abbrev NodeFeat : Shape := ⟨2, ![10000, 128]⟩
/-- The adjacency: N × N. -/
abbrev Adjacency : Shape := ⟨2, ![10000, 10000]⟩
/-- The weight: D × D, row c the weights of output feature c. -/
abbrev Weight : Shape := ⟨2, ![128, 128]⟩
/-- The bias: a D-vector. -/
abbrev Bias : Shape := ⟨1, ![128]⟩

/-- Entry (r, c) of x · wᵀ + b: the inner product of row r of x with row c of w, plus b(c). -/
def hiddenAt (x : NodeFeat.Idx → EReal) (w : Weight.Idx → EReal) (b : Bias.Idx → EReal) (r : Fin 10000) (c : Fin 128) : EReal :=
  (∑ k : Fin 128, x (ix2 r k) * w (ix2 c k)) + b (ix1 c)

/-- The affine map x · wᵀ + b as an N × D array. -/
def hidden (x : NodeFeat.Idx → EReal) (w : Weight.Idx → EReal) (b : Bias.Idx → EReal) : NodeFeat.Idx → EReal :=
  fun i => hiddenAt x w b (i 0) (i 1)

theorem hidden_ix2 (x : NodeFeat.Idx → EReal) (w : Weight.Idx → EReal) (b : Bias.Idx → EReal) (r : Fin 10000) (c : Fin 128) :
    hidden x w b (ix2 r c) = hiddenAt x w b r c := rfl

/-- Entry (r, c) of max (adj · h) 0: row r of adj against column c of h, floored at zero. -/
def aggregatedAt (adj : Adjacency.Idx → EReal) (h : NodeFeat.Idx → EReal) (r : Fin 10000) (c : Fin 128) : EReal :=
  max (∑ k : Fin 10000, adj (ix2 r k) * h (ix2 k c)) (Ideal.ofBits .f32 0x00000000#32)

/-- The aggregation max (adj · h) 0 as an N × D array. -/
def aggregated (adj : Adjacency.Idx → EReal) (h : NodeFeat.Idx → EReal) : NodeFeat.Idx → EReal :=
  fun i => aggregatedAt adj h (i 0) (i 1)

theorem aggregated_ix2 (adj : Adjacency.Idx → EReal) (h : NodeFeat.Idx → EReal) (r : Fin 10000) (c : Fin 128) :
    aggregated adj h (ix2 r c) = aggregatedAt adj h r c := rfl

/-- The whole layer: max (adj · (x · wᵀ + b)) 0. -/
def layer (x : NodeFeat.Idx → EReal) (adj : Adjacency.Idx → EReal) (w : Weight.Idx → EReal) (b : Bias.Idx → EReal) :
    NodeFeat.Idx → EReal :=
  aggregated adj (hidden x w b)

end Cert.GraphConv

end
-- ==== Proof.HiddenValue.lean ====
/-
  What the first launch leaves in its output array. The launch has a single grid point whose blocks are the whole
  arrays: the 10000 × 128 features, the 128 × 128 weight, the 1 × 128 bias row, and the 10000 × 128 output. Entry
  (r, c) of what it writes is Σ_k x(r, k) · w(c, k) + b(0, c), so the output array ends as the affine map x · wᵀ + b.
-/
import proofs.«167146_g57853209477636_cont_9to1_m_1361_5_alg».proof.Proof.Gen.KernelIdeal.Frame
import proofs.«167146_g57853209477636_cont_9to1_m_1361_5_alg».proof.Proof.BodyValue
import proofs.«167146_g57853209477636_cont_9to1_m_1361_5_alg».proof.Proof.Spec
import Idealize.ShloMosaic.Lib.ValueIdx
import Idealize.ShloMosaic.Lib.Pipeline.Value

set_option maxRecDepth 16384

noncomputable section

namespace Cert.KernelIdeal.HiddenValue

open Idealize.ShloMosaic Idealize.ShloMosaic.TcCoe Idealize.ShloMosaic.ValueIdx Idealize.SL.Sem
open Cert.KernelIdeal Cert.KernelIdeal.Gen Cert.KernelIdeal.BodyValue Cert.GraphConv

variable (V : (c : Dev nD) → (b : Ref sig .tc) → Buf (Elt Ideal) ((c : Thread nD τ).loc b))

theorem zero_offsets : (![0, 0] : Fin 2 → Nat) = fun _ => 0 := funext fun a => by fin_cases a <;> rfl

/-- At the single point every block index is zero. -/
theorem block_indices : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The features block is the whole features array. -/
theorem features_block (c : Dev nD) (t : Fin cfg0.N) (r : Fin 10000) (k : Fin 128) (i : S10000x128.Idx)
    (h0 : (i 0).val = r.val) (h1 : (i 1).val = k.val) :
    iblk0 V c 0 t (ix2 r k) = V c main_arg0 i := by
  obtain ⟨e0, e1, -, -, -, -, -, -⟩ := block_indices t
  show V c main_arg0 (((cfg0.win 0).blk t).view.emb (ix2 r k)) = V c main_arg0 i
  refine congrArg _ (funext fun a => Fin.ext ?_)
  match a with
  | ⟨0, _⟩ => show win0_0.index t (0 : Fin 2) * 10000 + 1 * r.val = (i 0).val; omega
  | ⟨1, _⟩ => show win0_0.index t (1 : Fin 2) * 128 + 1 * k.val = (i 1).val; omega

/-- The weight block is the whole weight array. -/
theorem weight_block (c : Dev nD) (t : Fin cfg0.N) (q : Fin 128) (k : Fin 128) (i : S128x128.Idx)
    (h0 : (i 0).val = q.val) (h1 : (i 1).val = k.val) :
    iblk0 V c 1 t (ix2 q k) = V c main_arg2 i := by
  obtain ⟨-, -, e2, e3, -, -, -, -⟩ := block_indices t
  show V c main_arg2 (((cfg0.win 1).blk t).view.emb (ix2 q k)) = V c main_arg2 i
  refine congrArg _ (funext fun a => Fin.ext ?_)
  match a with
  | ⟨0, _⟩ => show win0_1.index t (0 : Fin 2) * 128 + 1 * q.val = (i 0).val; omega
  | ⟨1, _⟩ => show win0_1.index t (1 : Fin 2) * 128 + 1 * k.val = (i 1).val; omega

/-- The bias block is the whole one-row bias array. -/
theorem bias_block (c : Dev nD) (t : Fin cfg0.N) (q : Fin 128) (i : S1x128.Idx)
    (h0 : (i 0).val = 0) (h1 : (i 1).val = q.val) :
    iblk0 V c 2 t (ix2 0 q) = V c main_call0_v0 i := by
  obtain ⟨-, -, -, -, e4, e5, -, -⟩ := block_indices t
  show V c main_call0_v0 (((cfg0.win 2).blk t).view.emb (ix2 0 q)) = V c main_call0_v0 i
  refine congrArg _ (funext fun a => Fin.ext ?_)
  match a with
  | ⟨0, _⟩ => show win0_2.index t (0 : Fin 2) * 1 + 1 * 0 = (i 0).val; omega
  | ⟨1, _⟩ => show win0_2.index t (1 : Fin 2) * 128 + 1 * q.val = (i 1).val; omega

/-- What the point writes back is the affine map of the arrays the launch finds, the bias read off its one row. -/
theorem flushed_eq (c : Dev nD) (t : Fin cfg0.N) :
    (dat0 V c).flushed 3 t = ((cfg0.win 3).blk t).view.read (Elt Ideal)
      (hidden (V c main_arg0) (V c main_arg2) (fun j => V c main_call0_v0 (ix2 0 (j 0)))) := by
  show (cfg0.win 3).cut (grid0.coords t) ((dat0 V c).after 3 t) = _
  rw [after0_3]
  unfold out0_3
  rw [View.canon_unit_zero zero_offsets]
  simp only [View.ld_unit_zero (S := S10000x128) zero_offsets, View.ld_unit_zero (S := S128x128) zero_offsets,
    View.ld_unit_zero (S := S1x128) zero_offsets]
  obtain ⟨-, -, -, -, -, -, e6, e7⟩ := block_indices t
  funext j
  show k0_pay1 (F := Ideal) (iblk0 V c 0 t) (iblk0 V c 1 t) (iblk0 V c 2 t) j
    = hiddenAt (V c main_arg0) (V c main_arg2) (fun j => V c main_call0_v0 (ix2 0 (j 0)))
        ((((cfg0.win 3).blk t).view.emb j) 0) ((((cfg0.win 3).blk t).view.emb j) 1)
  refine (affine_apply (iblk0 V c 0 t) (iblk0 V c 1 t) (iblk0 V c 2 t) j).trans ?_
  have h0 : ((((cfg0.win 3).blk t).view.emb j) 0).val = (j 0).val := by
    show win0_3.index t (0 : Fin 2) * 10000 + 1 * (j 0).val = (j 0).val; omega
  have h1 : ((((cfg0.win 3).blk t).view.emb j) 1).val = (j 1).val := by
    show win0_3.index t (1 : Fin 2) * 128 + 1 * (j 1).val = (j 1).val; omega
  unfold hiddenAt
  refine congrArg₂ (fun a b : EReal => a + b)
    (Finset.sum_congr rfl fun k _ => congrArg₂ (fun a b : EReal => a * b) ?_ ?_) ?_
  · exact features_block V c t (j 0) k (ix2 ((((cfg0.win 3).blk t).view.emb j) 0) k) h0 rfl
  · exact weight_block V c t (j 1) k (ix2 ((((cfg0.win 3).blk t).view.emb j) 1) k) h1 rfl
  · exact bias_block V c t (j 1) (ix2 0 ((((cfg0.win 3).blk t).view.emb j) 1)) rfl h1

/-- An index of the output array is in the point's block iff each coordinate is in the block's range on its axis. -/
theorem mem_block (t : Fin cfg0.N) (i : S10000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_call0_v1).slice (win0_3.rect t)).set ↔ _
  rw [View.set_slice_whole, Rect.mem_set_unit]
  exact Iff.rfl

/-- The single point's block is the whole output array. -/
theorem covered (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  obtain ⟨-, -, -, -, -, -, e6, e7⟩ := block_indices t0_0
  refine ⟨t0_0, flush0_3 t0_0, ?_⟩
  rw [mem_block]
  intro a
  match a with
  | ⟨0, _⟩ => show win0_3.index t0_0 (0 : Fin 2) * 10000 ≤ (i 0).val ∧ (i 0).val < win0_3.index t0_0 (0 : Fin 2) * 10000 + 10000; omega
  | ⟨1, _⟩ => show win0_3.index t0_0 (1 : Fin 2) * 128 ≤ (i 1).val ∧ (i 1).val < win0_3.index t0_0 (1 : Fin 2) * 128 + 128; omega

/-- The output array after the first launch is the affine map of the arrays the launch finds. -/
theorem output_eq (c : Dev nD) :
    (dat0 V c).arrAt 3 cfg0.N = hidden (V c main_arg0) (V c main_arg2) (fun j => V c main_call0_v0 (ix2 0 (j 0))) :=
  (dat0 V c).arrAt_eq_of_cover 3 _ (fun t _ => flushed_eq V c t) (fun i => covered i)

end Cert.KernelIdeal.HiddenValue

end
-- ==== Proof.AggregateValue.lean ====
/-
  What the second launch leaves in its output array. The launch walks 25 grid points; point t reads rows
  400·t … 400·t + 399 of the adjacency (all 10000 columns) and the whole 10000 × 128 hidden array, and writes rows
  400·t … 400·t + 399 of the output. Entry (p, q) of what point t writes is
  max (Σ_k adj(400·t + p, k) · hidden(k, q)) 0, which is entry (400·t + p, q) of the aggregation of the whole arrays;
  the 25 row blocks tile the 10000 rows, so the output array ends as the aggregation.
-/
import proofs.«167146_g57853209477636_cont_9to1_m_1361_5_alg».proof.Proof.Gen.KernelIdeal.Frame
import proofs.«167146_g57853209477636_cont_9to1_m_1361_5_alg».proof.Proof.BodyValue
import proofs.«167146_g57853209477636_cont_9to1_m_1361_5_alg».proof.Proof.Spec
import Idealize.ShloMosaic.Lib.ValueIdx
import Idealize.ShloMosaic.Lib.Pipeline.Value

set_option maxRecDepth 16384

noncomputable section

namespace Cert.KernelIdeal.AggregateValue

open Idealize.ShloMosaic Idealize.ShloMosaic.TcCoe Idealize.ShloMosaic.ValueIdx Idealize.SL.Sem
open Cert.KernelIdeal Cert.KernelIdeal.Gen Cert.KernelIdeal.BodyValue Cert.GraphConv

variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the 25 points: the adjacency's and the output's row block is the point's number, every
    other block index is zero. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, k) of point t's adjacency block is the adjacency at row 400·t + p, column k. -/
theorem adjacency_block (c : Dev nD) (t : Fin cfg1.N) (p : Fin 400) (k : Fin 10000) (i : S10000x10000.Idx)
    (h0 : (i 0).val = t.val * 400 + p.val) (h1 : (i 1).val = k.val) :
    iblk1 V c 0 t (ix2 p k) = V c main_arg1 i := by
  obtain ⟨e0, e1, -, -, -, -⟩ := block_indices t
  show V c main_arg1 (((cfg1.win 0).blk t).view.emb (ix2 p k)) = V c main_arg1 i
  refine congrArg _ (funext fun a => Fin.ext ?_)
  match a with
  | ⟨0, _⟩ => show win1_0.index t (0 : Fin 2) * 400 + 1 * p.val = (i 0).val; omega
  | ⟨1, _⟩ => show win1_0.index t (1 : Fin 2) * 10000 + 1 * k.val = (i 1).val; omega

/-- Entry (k, q) of point t's hidden block is the hidden array at (k, q): the block is the whole array. -/
theorem hidden_block (c : Dev nD) (t : Fin cfg1.N) (k : Fin 10000) (q : Fin 128) (i : S10000x128.Idx)
    (h0 : (i 0).val = k.val) (h1 : (i 1).val = q.val) :
    iblk1 V c 1 t (ix2 k q) = V c main_call0_v1 i := by
  obtain ⟨-, -, e2, e3, -, -⟩ := block_indices t
  show V c main_call0_v1 (((cfg1.win 1).blk t).view.emb (ix2 k q)) = V c main_call0_v1 i
  refine congrArg _ (funext fun a => Fin.ext ?_)
  match a with
  | ⟨0, _⟩ => show win1_1.index t (0 : Fin 2) * 10000 + 1 * k.val = (i 0).val; omega
  | ⟨1, _⟩ => show win1_1.index t (1 : Fin 2) * 128 + 1 * q.val = (i 1).val; omega

/-- What point t writes back is its row block of the aggregation of the arrays the launch finds. -/
theorem flushed_eq (c : Dev nD) (t : Fin cfg1.N) :
    (dat1 V c).flushed 2 t = ((cfg1.win 2).blk t).view.read (Elt Ideal) (aggregated (V c main_arg1) (V c main_call0_v1)) := by
  show (cfg1.win 2).cut (grid1.coords t) ((dat1 V c).after 2 t) = _
  rw [after1_2]
  unfold out1_2
  rw [View.canon_unit_zero zero_offsets]
  simp only [View.ld_unit_zero (S := S400x10000) zero_offsets, View.ld_unit_zero (S := S10000x128) zero_offsets]
  obtain ⟨-, -, -, -, e4, e5⟩ := block_indices t
  funext j
  show k1_pay1 (F := Ideal) (iblk1 V c 0 t) (iblk1 V c 1 t) j
    = aggregatedAt (V c main_arg1) (V c main_call0_v1) ((((cfg1.win 2).blk t).view.emb j) 0) ((((cfg1.win 2).blk t).view.emb j) 1)
  refine (aggregate_apply (iblk1 V c 0 t) (iblk1 V c 1 t) j).trans ?_
  unfold aggregatedAt
  refine congrArg (max · (Ideal.ofBits .f32 0x00000000#32)) (Finset.sum_congr rfl fun k _ => ?_)
  rw [adjacency_block V c t (j 0) k (ix2 ((((cfg1.win 2).blk t).view.emb j) 0) k)
      (by show win1_2.index t (0 : Fin 2) * 400 + 1 * (j 0).val = t.val * 400 + (j 0).val; omega) rfl,
    hidden_block V c t k (j 1) (ix2 k ((((cfg1.win 2).blk t).view.emb j) 1)) rfl
      (by show win1_2.index t (1 : Fin 2) * 128 + 1 * (j 1).val = (j 1).val; omega)]

/-- An index of the output array is in point t's block iff each coordinate is in the block's range on its axis. -/
theorem mem_block (t : Fin cfg1.N) (i : S10000x128.Idx) :
    i ∈ ((cfg1.win 2).blk t).view.set ↔ ∀ a : Fin 2, win1_2.index t a * S400x128.size a ≤ (i a).val ∧ (i a).val < win1_2.index t a * S400x128.size a + S400x128.size a := by
  show i ∈ ((View.whole main_v0_0).slice (win1_2.rect t)).set ↔ _
  rw [View.set_slice_whole, Rect.mem_set_unit]
  exact Iff.rfl

/-- Row r of the output lies in the block of point r / 400. -/
theorem covered (i : S10000x128.Idx) :
    ∃ t : Fin cfg1.N, (cfg1.win 2).flush t = true ∧ i ∈ ((cfg1.win 2).blk t).view.set := by
  have hi0 : (i 0).val < 10000 := (i 0).isLt
  have hi1 : (i 1).val < 128 := (i 1).isLt
  have hN : cfg1.N = 25 := N_1
  let t : Fin cfg1.N := ⟨(i 0).val / 400, by rw [hN]; omega⟩
  obtain ⟨-, -, -, -, e4, e5⟩ := block_indices t
  have ht : t.val = (i 0).val / 400 := rfl
  refine ⟨t, flush1_2 t, ?_⟩
  rw [mem_block]
  intro a
  match a with
  | ⟨0, _⟩ => show win1_2.index t (0 : Fin 2) * 400 ≤ (i 0).val ∧ (i 0).val < win1_2.index t (0 : Fin 2) * 400 + 400; omega
  | ⟨1, _⟩ => show win1_2.index t (1 : Fin 2) * 128 ≤ (i 1).val ∧ (i 1).val < win1_2.index t (1 : Fin 2) * 128 + 128; omega

/-- The output array after the second launch is the aggregation of the adjacency and hidden arrays the launch finds. -/
theorem output_eq (c : Dev nD) :
    (dat1 V c).arrAt 2 cfg1.N = aggregated (V c main_arg1) (V c main_call0_v1) :=
  (dat1 V c).arrAt_eq_of_cover 2 _ (fun t _ => flushed_eq V c t) (fun i => covered i)

end Cert.KernelIdeal.AggregateValue

end
-- ==== Proof.KernelValue.lean ====
/-
  The idealized kernel's result is the graph-convolution layer of its arguments.

  Before the first launch the host reshapes the bias vector into a one-row array: its entry (0, q) is b(q), and the
  features and the weight are as launched. The first launch therefore leaves the affine map x · wᵀ + b in the hidden
  array. The second launch finds the adjacency as launched and that hidden array, and leaves their aggregation
  max (adj · hidden) 0 in the result buffer.
-/
import proofs.«167146_g57853209477636_cont_9to1_m_1361_5_alg».proof.Proof.Gen.KernelIdeal.Frame
import proofs.«167146_g57853209477636_cont_9to1_m_1361_5_alg».proof.Proof.KernelRun
import proofs.«167146_g57853209477636_cont_9to1_m_1361_5_alg».proof.Proof.HiddenValue
import proofs.«167146_g57853209477636_cont_9to1_m_1361_5_alg».proof.Proof.AggregateValue
import proofs.«167146_g57853209477636_cont_9to1_m_1361_5_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.LayerValue

open Idealize.ShloMosaic Idealize.ShloMosaic.TcCoe Idealize.ShloMosaic.ValueIdx Idealize.SL.Sem Idealize.ShloMosaic.StableHlo
open Cert.KernelIdeal Cert.KernelIdeal.Gen Cert.GraphConv

variable (m : (ℓ : Loc nD τ sig) → Buf (Elt Ideal) ℓ) (ρ : Dev nD → PrngReg)

/-- When the first launch starts, the one-row bias array is the bias vector recast to one row. -/
theorem entry_bias (c : Dev nD) : (V1 m ρ c main_call0_v0 : S1x128.Idx → EReal)
    = shapeCast S1x128 (m ((c : Thread nD τ).loc main_arg3)) shapeCasts_S128_S1x128 := by
  dsimp only [V1, W1, W0, hostOps0]
  after_results
  rfl

/-- … the features are as launched, -/
theorem entry_features (c : Dev nD) : V1 m ρ c main_arg0 = m ((c : Thread nD τ).loc main_arg0) := by
  dsimp only [V1, W1, W0, hostOps0]
  after_results

/-- … and so is the weight. -/
theorem entry_weight (c : Dev nD) : V1 m ρ c main_arg2 = m ((c : Thread nD τ).loc main_arg2) := by
  dsimp only [V1, W1, W0, hostOps0]
  after_results

/-- Entry (0, q) of the one-row bias array is b(q). -/
theorem bias_row (c : Dev nD) (q : Fin 128) :
    (V1 m ρ c main_call0_v0 (ix2 0 q) : EReal) = m ((c : Thread nD τ).loc main_arg3) (ix1 q) :=
  (congrFun (entry_bias m ρ c) (ix2 0 q)).trans
    ((shapeCast_addUnit_apply ![128] (m ((c : Thread nD τ).loc main_arg3)) shapeCasts_S128_S1x128 (ix2 0 q)).trans
      (congrArg (m ((c : Thread nD τ).loc main_arg3)) (funext fun a => match a with | ⟨0, _⟩ => rfl)))

/-- When the second launch starts, the hidden array is the affine map of the launched features, weight and bias. -/
theorem entry_hidden (c : Dev nD) : (V2 m ρ c main_call0_v1 : S10000x128.Idx → EReal)
    = hidden (m ((c : Thread nD τ).loc main_arg0)) (m ((c : Thread nD τ).loc main_arg2)) (m ((c : Thread nD τ).loc main_arg3)) := by
  refine ((W2_arr m ρ c 3).trans (HiddenValue.output_eq (V1 m ρ) c)).trans ?_
  rw [entry_features, entry_weight]
  refine congrArg (hidden (m ((c : Thread nD τ).loc main_arg0)) (m ((c : Thread nD τ).loc main_arg2))) (funext fun j => ?_)
  obtain ⟨q, rfl⟩ : ∃ q : Fin 128, j = ix1 q := ⟨j 0, eq_ix1 j⟩
  exact bias_row m ρ c q

/-- … and the adjacency is as launched. -/
theorem entry_adjacency (c : Dev nD) : V2 m ρ c main_arg1 = m ((c : Thread nD τ).loc main_arg1) := by
  refine (W2_of_ne m ρ c main_arg1 (by decide)).trans ?_
  show W1 m ρ c (Proc.devRef .tc main_arg1) = _
  dsimp only [W1, W0, hostOps0]
  after_results

/-- After the second launch the result buffer holds the layer of the launched arguments. -/
theorem result_eq (c : Dev nD) : W3 m ρ c (Proc.devRef .tc main_v0_0)
    = layer (m ((c : Thread nD τ).loc main_arg0)) (m ((c : Thread nD τ).loc main_arg1)) (m ((c : Thread nD τ).loc main_arg2))
        (m ((c : Thread nD τ).loc main_arg3)) := by
  refine ((W3_arr m ρ c 2).trans (AggregateValue.output_eq (V2 m ρ) c)).trans ?_
  rw [entry_adjacency, entry_hidden]
  rfl

/-- Every weakly fair execution of the idealized kernel terminates, nothing faulting, with the result buffer at the
    layer of the launched arguments and the arguments unchanged. -/
theorem run : θ_run defs (onTc (τ := τ) (main (F := Ideal))) ⟨m, fun _ => 0, ρ⟩ (fun r => ∀ c : Dev nD,
      r.2.mem ((c.tc : Thread nD τ).loc main_v0_0)
        = layer (m ((c : Thread nD τ).loc main_arg0)) (m ((c : Thread nD τ).loc main_arg1)) (m ((c : Thread nD τ).loc main_arg2))
            (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (RunValue.run_result m ρ)

end Cert.KernelIdeal.LayerValue

end
-- ==== Proof.RefValue.lean ====
/-
  The reference's result is the graph-convolution layer. Stage by stage: the transposed weight at (k, c) is w(c, k), so
  the first product at (r, c) is Σ_k x(r, k) · w(c, k); the bias, made a row and repeated down the rows, adds b(c);
  the second product at (r, c) is Σ_k adj(r, k) · hidden(k, c); the rectifier takes the larger of that and the value of
  the zero word repeated over the array.
-/
import proofs.«167146_g57853209477636_cont_9to1_m_1361_5_alg».proof.Proof.Gen.ReferenceIdeal.Read
import proofs.«167146_g57853209477636_cont_9to1_m_1361_5_alg».proof.Proof.Spec
import Idealize.ShloMosaic.Lib.ValueIdx

noncomputable section

namespace Cert.ReferenceIdeal.RefValue

open Idealize.ShloMosaic Idealize.ShloMosaic.ValueIdx
open Cert.ReferenceIdeal Cert.ReferenceIdeal.Read Cert.GraphConv

/-- The reference's sum of the first product and the repeated bias is the affine map x · wᵀ + b. -/
theorem hidden_eq (x : S10000x128.Idx → EReal) (w : S128x128.Idx → EReal) (b : S128.Idx → EReal) :
    val_main_v4 (F := Ideal) x w b = hidden x w b := by
  funext i
  obtain ⟨r, c, rfl⟩ : ∃ (r : Fin 10000) (c : Fin 128), i = ix2 r c := ⟨i 0, i 1, eq_ix2 i⟩
  rw [val_main_v4_apply, val_main_v1_apply, val_main_v3_apply, val_main_v2_apply]
  show (∑ k : Fin 128, x (lidx_main_v1 (ix2 r c) k) * val_main_v0 (F := Ideal) w (ridx_main_v1 (ix2 r c) k))
      + b (idx_main_v2 (idx_main_v3 (ix2 r c))) = hiddenAt x w b r c
  unfold hiddenAt
  refine congrArg₂ (· + ·) (Finset.sum_congr rfl fun k _ => ?_) (congrArg b ?_)
  · rw [val_main_v0_apply]
    refine congrArg₂ (· * ·) (congrArg x ?_) (congrArg w ?_)
    · funext a
      match a with
      | ⟨0, _⟩ => rfl
      | ⟨1, _⟩ => rfl
    · funext a
      match a with
      | ⟨0, _⟩ => rfl
      | ⟨1, _⟩ => rfl
  · funext a
    match a with
    | ⟨0, _⟩ => rfl

/-- The reference's result is the layer max (adj · (x · wᵀ + b)) 0. -/
theorem layer_eq (x : S10000x128.Idx → EReal) (adj : S10000x10000.Idx → EReal) (w : S128x128.Idx → EReal) (b : S128.Idx → EReal) :
    val_main_v6 (F := Ideal) x adj w b = layer x adj w b := by
  funext i
  obtain ⟨r, c, rfl⟩ : ∃ (r : Fin 10000) (c : Fin 128), i = ix2 r c := ⟨i 0, i 1, eq_ix2 i⟩
  rw [val_main_v6_apply, val_main_v5_apply, val_main_call0_v0_apply, val_main_call0_cst_apply, hidden_eq]
  show max (∑ k : Fin 10000, adj (lidx_main_v5 (ix2 r c) k) * hidden x w b (ridx_main_v5 (ix2 r c) k))
      (Ideal.ofBits .f32 0x00000000#32) = aggregatedAt adj (hidden x w b) r c
  unfold aggregatedAt
  refine congrArg (max · (Ideal.ofBits .f32 0x00000000#32)) (Finset.sum_congr rfl fun k _ => ?_)
  refine congrArg₂ (· * ·) (congrArg adj ?_) (congrArg (hidden x w b) ?_)
  · funext a
    match a with
    | ⟨0, _⟩ => rfl
    | ⟨1, _⟩ => rfl
  · funext a
    match a with
    | ⟨0, _⟩ => rfl
    | ⟨1, _⟩ => rfl

end Cert.ReferenceIdeal.RefValue

end
-- ==== Proof.lean ====
/-
  A graph-convolution layer, relu (adj · (x · wᵀ + b)), computed two ways over the extended reals.

  The kernel program makes the bias a one-row array, computes hidden = x · wᵀ + b in one launch over the whole arrays
  (storing it in a shorter float format, which changes nothing on extended reals), and then, in a second launch over 25
  blocks of 400 rows of the adjacency, computes max (adj · hidden) 0 block of rows by block of rows. The reference
  transposes the weight, forms x · wᵀ, adds the bias repeated down the rows, multiplies by the adjacency and takes the
  maximum with zero. Entry by entry both are

      max (Σ_{k < 10000} adj(r, k) · (Σ_{j < 128} x(k, j) · w(c, j) + b(c))) 0,

  with the same grouping on both sides, so the equality uses no law of arithmetic beyond reading each product as its
  finite sum; in particular it holds at infinite entries too and the finiteness of the inputs is not used. The second
  result of both programs is the adjacency itself, unchanged.
-/
import proofs.«167146_g57853209477636_cont_9to1_m_1361_5_alg».proof.Defs
import proofs.«167146_g57853209477636_cont_9to1_m_1361_5_alg».proof.Proof.Gen.Kernel
import proofs.«167146_g57853209477636_cont_9to1_m_1361_5_alg».proof.Proof.Gen.Kernel.Skeleton
import proofs.«167146_g57853209477636_cont_9to1_m_1361_5_alg».proof.Proof.Gen.Kernel.Launch
import proofs.«167146_g57853209477636_cont_9to1_m_1361_5_alg».proof.Proof.Gen.Kernel.Points
import proofs.«167146_g57853209477636_cont_9to1_m_1361_5_alg».proof.Proof.Gen.Kernel.Frame
import proofs.«167146_g57853209477636_cont_9to1_m_1361_5_alg».proof.Proof.Gen.KernelIdeal
import proofs.«167146_g57853209477636_cont_9to1_m_1361_5_alg».proof.Proof.Gen.KernelIdeal.Skeleton
import proofs.«167146_g57853209477636_cont_9to1_m_1361_5_alg».proof.Proof.Gen.KernelIdeal.Launch
import proofs.«167146_g57853209477636_cont_9to1_m_1361_5_alg».proof.Proof.Gen.KernelIdeal.Points
import proofs.«167146_g57853209477636_cont_9to1_m_1361_5_alg».proof.Proof.Gen.KernelIdeal.Frame
import proofs.«167146_g57853209477636_cont_9to1_m_1361_5_alg».proof.Proof.Gen.ReferenceIdeal
import proofs.«167146_g57853209477636_cont_9to1_m_1361_5_alg».proof.Proof.Gen.Pre_finite_inputs
import proofs.«167146_g57853209477636_cont_9to1_m_1361_5_alg».proof.Proof.Gen.ReferenceIdeal.Run
import proofs.«167146_g57853209477636_cont_9to1_m_1361_5_alg».proof.Proof.Gen.ReferenceIdeal.Read
import proofs.«167146_g57853209477636_cont_9to1_m_1361_5_alg».proof.Proof.KernelValue
import proofs.«167146_g57853209477636_cont_9to1_m_1361_5_alg».proof.Proof.RefValue
import Idealize.ShloMosaic.Adequacy
import Idealize.ShloMosaic.Init

noncomputable section

namespace Cert.Proof

open Idealize.ShloMosaic Idealize.SL.Sem

/-- The kernel program, word by word, terminates without fault and leaves its arguments unchanged. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- So does the reference: its run with the result dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs end with the layer of the arguments in their first result and
    the adjacency, unchanged, as their second. -/
theorem algebraic : Cert.algebraic_KernelIdeal_ReferenceIdeal := by
  intro m ρ m' ρ' _ hagree
  refine ⟨fun c => Cert.GraphConv.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => m ((c.tc : Thread Cert.KernelIdeal.nD Cert.KernelIdeal.τ).loc Cert.KernelIdeal.main_arg1), ?_, ?_⟩
  · exact (θ_run Cert.KernelIdeal.defs _ _).mono (fun r h c => ⟨(h c).1, (h c).2.2.1, (h c).2⟩)
      (Cert.KernelIdeal.LayerValue.run m ρ)
  · refine (θ_run Cert.ReferenceIdeal.defs _ _).mono (fun r h c => ⟨?_, ?_, (h c).2.2⟩)
      (Cert.ReferenceIdeal.Value.run (F := Ideal) m' ρ')
    · refine ((h c).1.trans (Cert.ReferenceIdeal.Read.val_main_v6_eq _ _ _ _)).trans
        ((Cert.ReferenceIdeal.RefValue.layer_eq _ _ _ _).trans ?_)
      rw [(hagree c).1, (hagree c).2.1, (hagree c).2.2.1, (hagree c).2.2.2]
    · exact (h c).2.1.trans (hagree c).2.1

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
